-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel

variable [Facts]

def fn {F : FTy → Type} [FloatOps F] (main_arg0 : FVec F S32x64x64x64 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  main_v3
-- ==== Kernel.lean ====
abbrev S32x64x64x64 : Shape := ⟨4, ![32, 64, 64, 64]⟩
abbrev S123008x3x3x64 : Shape := ⟨4, ![123008, 3, 3, 64]⟩
abbrev S1984x3x3x64 : Shape := ⟨4, ![1984, 3, 3, 64]⟩
abbrev S32x3x64x64 : Shape := ⟨4, ![32, 3, 64, 64]⟩
abbrev S32x3x3x64 : Shape := ⟨4, ![32, 3, 3, 64]⟩

abbrev nBuf : Space → Nat
  | .hbm => 2
  | .vmem => 3
  | .smem => 0
  | _ => 0

abbrev bufTy : (tb : Table) → Fin (tcTables nBuf tb) → BufTy
  | .hbm, ⟨0, _⟩ => ⟨S32x64x64x64, .f32⟩
  | .hbm, ⟨1, _⟩ => ⟨S123008x3x3x64, .f32⟩
  | .local _ .vmem, ⟨0, _⟩ => ⟨S32x64x64x64, .f32⟩
  | .local _ .vmem, ⟨1, _⟩ => ⟨S1984x3x3x64, .f32⟩
  | .local _ .vmem, ⟨2, _⟩ => ⟨S1984x3x3x64, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![62], ![false]⟩

def k0_off1 (i : grid0.Coords) : Fin 4 → Nat :=
  let c0 : Index := 0#32
  let arg0 : BitVec 32 := BitVec.ofNat 32 (i 0).val
  let c1_i32 : BitVec 32 := 1#32
  let v0 : BitVec 32 := Scalar.muli arg0 c1_i32
  let v1 : Index := Scalar.indexCast v0
  let c0_0 : Index := 0#32
  let c0_1 : Index := 0#32
  ![0, v1.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S32x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1984x3x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S32x3x64x64 : 0 < S32x3x64x64.numel
  slices_S32x3x64x64_o0_0_0_0_S32x3x3x64 : S32x3x64x64.Slices ![0, 0, 0, 0] S32x3x3x64
  inb_S1984x3x3x64_S32x3x3x64_0_0_0_0 : ∀ a, (![0, 0, 0, 0] : Fin 4 → Nat) a + S32x3x3x64.size a ≤ S1984x3x3x64.size a
  h_S32x3x3x64 : 0 < S32x3x3x64.numel
  slices_S32x3x64x64_o0_0_1_0_S32x3x3x64 : S32x3x64x64.Slices ![0, 0, 1, 0] S32x3x3x64
  inb_S1984x3x3x64_S32x3x3x64_32_0_0_0 : ∀ a, (![32, 0, 0, 0] : Fin 4 → Nat) a + S32x3x3x64.size a ≤ S1984x3x3x64.size a
  slices_S32x3x64x64_o0_0_2_0_S32x3x3x64 : S32x3x64x64.Slices ![0, 0, 2, 0] S32x3x3x64
  inb_S1984x3x3x64_S32x3x3x64_64_0_0_0 : ∀ a, (![64, 0, 0, 0] : Fin 4 → Nat) a + S32x3x3x64.size a ≤ S1984x3x3x64.size a
  slices_S32x3x64x64_o0_0_3_0_S32x3x3x64 : S32x3x64x64.Slices ![0, 0, 3, 0] S32x3x3x64
  inb_S1984x3x3x64_S32x3x3x64_96_0_0_0 : ∀ a, (![96, 0, 0, 0] : Fin 4 → Nat) a + S32x3x3x64.size a ≤ S1984x3x3x64.size a
  slices_S32x3x64x64_o0_0_4_0_S32x3x3x64 : S32x3x64x64.Slices ![0, 0, 4, 0] S32x3x3x64
  inb_S1984x3x3x64_S32x3x3x64_128_0_0_0 : ∀ a, (![128, 0, 0, 0] : Fin 4 → Nat) a + S32x3x3x64.size a ≤ S1984x3x3x64.size a
  slices_S32x3x64x64_o0_0_5_0_S32x3x3x64 : S32x3x64x64.Slices ![0, 0, 5, 0] S32x3x3x64
  inb_S1984x3x3x64_S32x3x3x64_160_0_0_0 : ∀ a, (![160, 0, 0, 0] : Fin 4 → Nat) a + S32x3x3x64.size a ≤ S1984x3x3x64.size a
  slices_S32x3x64x64_o0_0_6_0_S32x3x3x64 : S32x3x64x64.Slices ![0, 0, 6, 0] S32x3x3x64
  inb_S1984x3x3x64_S32x3x3x64_192_0_0_0 : ∀ a, (![192, 0, 0, 0] : Fin 4 → Nat) a + S32x3x3x64.size a ≤ S1984x3x3x64.size a
  slices_S32x3x64x64_o0_0_7_0_S32x3x3x64 : S32x3x64x64.Slices ![0, 0, 7, 0] S32x3x3x64
  inb_S1984x3x3x64_S32x3x3x64_224_0_0_0 : ∀ a, (![224, 0, 0, 0] : Fin 4 → Nat) a + S32x3x3x64.size a ≤ S1984x3x3x64.size a
  slices_S32x3x64x64_o0_0_8_0_S32x3x3x64 : S32x3x64x64.Slices ![0, 0, 8, 0] S32x3x3x64
  inb_S1984x3x3x64_S32x3x3x64_256_0_0_0 : ∀ a, (![256, 0, 0, 0] : Fin 4 → Nat) a + S32x3x3x64.size a ≤ S1984x3x3x64.size a
  slices_S32x3x64x64_o0_0_9_0_S32x3x3x64 : S32x3x64x64.Slices ![0, 0, 9, 0] S32x3x3x64
  inb_S1984x3x3x64_S32x3x3x64_288_0_0_0 : ∀ a, (![288, 0, 0, 0] : Fin 4 → Nat) a + S32x3x3x64.size a ≤ S1984x3x3x64.size a
  slices_S32x3x64x64_o0_0_10_0_S32x3x3x64 : S32x3x64x64.Slices ![0, 0, 10, 0] S32x3x3x64
  inb_S1984x3x3x64_S32x3x3x64_320_0_0_0 : ∀ a, (![320, 0, 0, 0] : Fin 4 → Nat) a + S32x3x3x64.size a ≤ S1984x3x3x64.size a
  slices_S32x3x64x64_o0_0_11_0_S32x3x3x64 : S32x3x64x64.Slices ![0, 0, 11, 0] S32x3x3x64
  inb_S1984x3x3x64_S32x3x3x64_352_0_0_0 : ∀ a, (![352, 0, 0, 0] : Fin 4 → Nat) a + S32x3x3x64.size a ≤ S1984x3x3x64.size a
  slices_S32x3x64x64_o0_0_12_0_S32x3x3x64 : S32x3x64x64.Slices ![0, 0, 12, 0] S32x3x3x64
  inb_S1984x3x3x64_S32x3x3x64_384_0_0_0 : ∀ a, (![384, 0, 0, 0] : Fin 4 → Nat) a + S32x3x3x64.size a ≤ S1984x3x3x64.size a
  slices_S32x3x64x64_o0_0_13_0_S32x3x3x64 : S32x3x64x64.Slices ![0, 0, 13, 0] S32x3x3x64
  inb_S1984x3x3x64_S32x3x3x64_416_0_0_0 : ∀ a, (![416, 0, 0, 0] : Fin 4 → Nat) a + S32x3x3x64.size a ≤ S1984x3x3x64.size a
  slices_S32x3x64x64_o0_0_14_0_S32x3x3x64 : S32x3x64x64.Slices ![0, 0, 14, 0] S32x3x3x64
  inb_S1984x3x3x64_S32x3x3x64_448_0_0_0 : ∀ a, (![448, 0, 0, 0] : Fin 4 → Nat) a + S32x3x3x64.size a ≤ S1984x3x3x64.size a
  slices_S32x3x64x64_o0_0_15_0_S32x3x3x64 : S32x3x64x64.Slices ![0, 0, 15, 0] S32x3x3x64
  inb_S1984x3x3x64_S32x3x3x64_480_0_0_0 : ∀ a, (![480, 0, 0, 0] : Fin 4 → Nat) a + S32x3x3x64.size a ≤ S1984x3x3x64.size a
  slices_S32x3x64x64_o0_0_16_0_S32x3x3x64 : S32x3x64x64.Slices ![0, 0, 16, 0] S32x3x3x64
  inb_S1984x3x3x64_S32x3x3x64_512_0_0_0 : ∀ a, (![512, 0, 0, 0] : Fin 4 → Nat) a + S32x3x3x64.size a ≤ S1984x3x3x64.size a
  slices_S32x3x64x64_o0_0_17_0_S32x3x3x64 : S32x3x64x64.Slices ![0, 0, 17, 0] S32x3x3x64
  inb_S1984x3x3x64_S32x3x3x64_544_0_0_0 : ∀ a, (![544, 0, 0, 0] : Fin 4 → Nat) a + S32x3x3x64.size a ≤ S1984x3x3x64.size a
  slices_S32x3x64x64_o0_0_18_0_S32x3x3x64 : S32x3x64x64.Slices ![0, 0, 18, 0] S32x3x3x64
  inb_S1984x3x3x64_S32x3x3x64_576_0_0_0 : ∀ a, (![576, 0, 0, 0] : Fin 4 → Nat) a + S32x3x3x64.size a ≤ S1984x3x3x64.size a
  slices_S32x3x64x64_o0_0_19_0_S32x3x3x64 : S32x3x64x64.Slices ![0, 0, 19, 0] S32x3x3x64
  inb_S1984x3x3x64_S32x3x3x64_608_0_0_0 : ∀ a, (![608, 0, 0, 0] : Fin 4 → Nat) a + S32x3x3x64.size a ≤ S1984x3x3x64.size a
  slices_S32x3x64x64_o0_0_20_0_S32x3x3x64 : S32x3x64x64.Slices ![0, 0, 20, 0] S32x3x3x64
  inb_S1984x3x3x64_S32x3x3x64_640_0_0_0 : ∀ a, (![640, 0, 0, 0] : Fin 4 → Nat) a + S32x3x3x64.size a ≤ S1984x3x3x64.size a
  slices_S32x3x64x64_o0_0_21_0_S32x3x3x64 : S32x3x64x64.Slices ![0, 0, 21, 0] S32x3x3x64
  inb_S1984x3x3x64_S32x3x3x64_672_0_0_0 : ∀ a, (![672, 0, 0, 0] : Fin 4 → Nat) a + S32x3x3x64.size a ≤ S1984x3x3x64.size a
  slices_S32x3x64x64_o0_0_22_0_S32x3x3x64 : S32x3x64x64.Slices ![0, 0, 22, 0] S32x3x3x64
  inb_S1984x3x3x64_S32x3x3x64_704_0_0_0 : ∀ a, (![704, 0, 0, 0] : Fin 4 → Nat) a + S32x3x3x64.size a ≤ S1984x3x3x64.size a
  slices_S32x3x64x64_o0_0_23_0_S32x3x3x64 : S32x3x64x64.Slices ![0, 0, 23, 0] S32x3x3x64
  inb_S1984x3x3x64_S32x3x3x64_736_0_0_0 : ∀ a, (![736, 0, 0, 0] : Fin 4 → Nat) a + S32x3x3x64.size a ≤ S1984x3x3x64.size a
  slices_S32x3x64x64_o0_0_24_0_S32x3x3x64 : S32x3x64x64.Slices ![0, 0, 24, 0] S32x3x3x64
  inb_S1984x3x3x64_S32x3x3x64_768_0_0_0 : ∀ a, (![768, 0, 0, 0] : Fin 4 → Nat) a + S32x3x3x64.size a ≤ S1984x3x3x64.size a
  slices_S32x3x64x64_o0_0_25_0_S32x3x3x64 : S32x3x64x64.Slices ![0, 0, 25, 0] S32x3x3x64
  inb_S1984x3x3x64_S32x3x3x64_800_0_0_0 : ∀ a, (![800, 0, 0, 0] : Fin 4 → Nat) a + S32x3x3x64.size a ≤ S1984x3x3x64.size a
  slices_S32x3x64x64_o0_0_26_0_S32x3x3x64 : S32x3x64x64.Slices ![0, 0, 26, 0] S32x3x3x64
  inb_S1984x3x3x64_S32x3x3x64_832_0_0_0 : ∀ a, (![832, 0, 0, 0] : Fin 4 → Nat) a + S32x3x3x64.size a ≤ S1984x3x3x64.size a
  slices_S32x3x64x64_o0_0_27_0_S32x3x3x64 : S32x3x64x64.Slices ![0, 0, 27, 0] S32x3x3x64
  inb_S1984x3x3x64_S32x3x3x64_864_0_0_0 : ∀ a, (![864, 0, 0, 0] : Fin 4 → Nat) a + S32x3x3x64.size a ≤ S1984x3x3x64.size a
  slices_S32x3x64x64_o0_0_28_0_S32x3x3x64 : S32x3x64x64.Slices ![0, 0, 28, 0] S32x3x3x64
  inb_S1984x3x3x64_S32x3x3x64_896_0_0_0 : ∀ a, (![896, 0, 0, 0] : Fin 4 → Nat) a + S32x3x3x64.size a ≤ S1984x3x3x64.size a
  slices_S32x3x64x64_o0_0_29_0_S32x3x3x64 : S32x3x64x64.Slices ![0, 0, 29, 0] S32x3x3x64
  inb_S1984x3x3x64_S32x3x3x64_928_0_0_0 : ∀ a, (![928, 0, 0, 0] : Fin 4 → Nat) a + S32x3x3x64.size a ≤ S1984x3x3x64.size a
  slices_S32x3x64x64_o0_0_30_0_S32x3x3x64 : S32x3x64x64.Slices ![0, 0, 30, 0] S32x3x3x64
  inb_S1984x3x3x64_S32x3x3x64_960_0_0_0 : ∀ a, (![960, 0, 0, 0] : Fin 4 → Nat) a + S32x3x3x64.size a ≤ S1984x3x3x64.size a
  slices_S32x3x64x64_o0_0_31_0_S32x3x3x64 : S32x3x64x64.Slices ![0, 0, 31, 0] S32x3x3x64
  inb_S1984x3x3x64_S32x3x3x64_992_0_0_0 : ∀ a, (![992, 0, 0, 0] : Fin 4 → Nat) a + S32x3x3x64.size a ≤ S1984x3x3x64.size a
  slices_S32x3x64x64_o0_0_32_0_S32x3x3x64 : S32x3x64x64.Slices ![0, 0, 32, 0] S32x3x3x64
  inb_S1984x3x3x64_S32x3x3x64_1024_0_0_0 : ∀ a, (![1024, 0, 0, 0] : Fin 4 → Nat) a + S32x3x3x64.size a ≤ S1984x3x3x64.size a
  slices_S32x3x64x64_o0_0_33_0_S32x3x3x64 : S32x3x64x64.Slices ![0, 0, 33, 0] S32x3x3x64
  inb_S1984x3x3x64_S32x3x3x64_1056_0_0_0 : ∀ a, (![1056, 0, 0, 0] : Fin 4 → Nat) a + S32x3x3x64.size a ≤ S1984x3x3x64.size a
  slices_S32x3x64x64_o0_0_34_0_S32x3x3x64 : S32x3x64x64.Slices ![0, 0, 34, 0] S32x3x3x64
  inb_S1984x3x3x64_S32x3x3x64_1088_0_0_0 : ∀ a, (![1088, 0, 0, 0] : Fin 4 → Nat) a + S32x3x3x64.size a ≤ S1984x3x3x64.size a
  slices_S32x3x64x64_o0_0_35_0_S32x3x3x64 : S32x3x64x64.Slices ![0, 0, 35, 0] S32x3x3x64
  inb_S1984x3x3x64_S32x3x3x64_1120_0_0_0 : ∀ a, (![1120, 0, 0, 0] : Fin 4 → Nat) a + S32x3x3x64.size a ≤ S1984x3x3x64.size a
  slices_S32x3x64x64_o0_0_36_0_S32x3x3x64 : S32x3x64x64.Slices ![0, 0, 36, 0] S32x3x3x64
  inb_S1984x3x3x64_S32x3x3x64_1152_0_0_0 : ∀ a, (![1152, 0, 0, 0] : Fin 4 → Nat) a + S32x3x3x64.size a ≤ S1984x3x3x64.size a
  slices_S32x3x64x64_o0_0_37_0_S32x3x3x64 : S32x3x64x64.Slices ![0, 0, 37, 0] S32x3x3x64
  inb_S1984x3x3x64_S32x3x3x64_1184_0_0_0 : ∀ a, (![1184, 0, 0, 0] : Fin 4 → Nat) a + S32x3x3x64.size a ≤ S1984x3x3x64.size a
  slices_S32x3x64x64_o0_0_38_0_S32x3x3x64 : S32x3x64x64.Slices ![0, 0, 38, 0] S32x3x3x64
  inb_S1984x3x3x64_S32x3x3x64_1216_0_0_0 : ∀ a, (![1216, 0, 0, 0] : Fin 4 → Nat) a + S32x3x3x64.size a ≤ S1984x3x3x64.size a
  slices_S32x3x64x64_o0_0_39_0_S32x3x3x64 : S32x3x64x64.Slices ![0, 0, 39, 0] S32x3x3x64
  inb_S1984x3x3x64_S32x3x3x64_1248_0_0_0 : ∀ a, (![1248, 0, 0, 0] : Fin 4 → Nat) a + S32x3x3x64.size a ≤ S1984x3x3x64.size a
  slices_S32x3x64x64_o0_0_40_0_S32x3x3x64 : S32x3x64x64.Slices ![0, 0, 40, 0] S32x3x3x64
  inb_S1984x3x3x64_S32x3x3x64_1280_0_0_0 : ∀ a, (![1280, 0, 0, 0] : Fin 4 → Nat) a + S32x3x3x64.size a ≤ S1984x3x3x64.size a
  slices_S32x3x64x64_o0_0_41_0_S32x3x3x64 : S32x3x64x64.Slices ![0, 0, 41, 0] S32x3x3x64
  inb_S1984x3x3x64_S32x3x3x64_1312_0_0_0 : ∀ a, (![1312, 0, 0, 0] : Fin 4 → Nat) a + S32x3x3x64.size a ≤ S1984x3x3x64.size a
  slices_S32x3x64x64_o0_0_42_0_S32x3x3x64 : S32x3x64x64.Slices ![0, 0, 42, 0] S32x3x3x64
  inb_S1984x3x3x64_S32x3x3x64_1344_0_0_0 : ∀ a, (![1344, 0, 0, 0] : Fin 4 → Nat) a + S32x3x3x64.size a ≤ S1984x3x3x64.size a
  slices_S32x3x64x64_o0_0_43_0_S32x3x3x64 : S32x3x64x64.Slices ![0, 0, 43, 0] S32x3x3x64
  inb_S1984x3x3x64_S32x3x3x64_1376_0_0_0 : ∀ a, (![1376, 0, 0, 0] : Fin 4 → Nat) a + S32x3x3x64.size a ≤ S1984x3x3x64.size a
  slices_S32x3x64x64_o0_0_44_0_S32x3x3x64 : S32x3x64x64.Slices ![0, 0, 44, 0] S32x3x3x64
  inb_S1984x3x3x64_S32x3x3x64_1408_0_0_0 : ∀ a, (![1408, 0, 0, 0] : Fin 4 → Nat) a + S32x3x3x64.size a ≤ S1984x3x3x64.size a
  slices_S32x3x64x64_o0_0_45_0_S32x3x3x64 : S32x3x64x64.Slices ![0, 0, 45, 0] S32x3x3x64
  inb_S1984x3x3x64_S32x3x3x64_1440_0_0_0 : ∀ a, (![1440, 0, 0, 0] : Fin 4 → Nat) a + S32x3x3x64.size a ≤ S1984x3x3x64.size a
  slices_S32x3x64x64_o0_0_46_0_S32x3x3x64 : S32x3x64x64.Slices ![0, 0, 46, 0] S32x3x3x64
  inb_S1984x3x3x64_S32x3x3x64_1472_0_0_0 : ∀ a, (![1472, 0, 0, 0] : Fin 4 → Nat) a + S32x3x3x64.size a ≤ S1984x3x3x64.size a
  slices_S32x3x64x64_o0_0_47_0_S32x3x3x64 : S32x3x64x64.Slices ![0, 0, 47, 0] S32x3x3x64
  inb_S1984x3x3x64_S32x3x3x64_1504_0_0_0 : ∀ a, (![1504, 0, 0, 0] : Fin 4 → Nat) a + S32x3x3x64.size a ≤ S1984x3x3x64.size a
  slices_S32x3x64x64_o0_0_48_0_S32x3x3x64 : S32x3x64x64.Slices ![0, 0, 48, 0] S32x3x3x64
  inb_S1984x3x3x64_S32x3x3x64_1536_0_0_0 : ∀ a, (![1536, 0, 0, 0] : Fin 4 → Nat) a + S32x3x3x64.size a ≤ S1984x3x3x64.size a
  slices_S32x3x64x64_o0_0_49_0_S32x3x3x64 : S32x3x64x64.Slices ![0, 0, 49, 0] S32x3x3x64
  inb_S1984x3x3x64_S32x3x3x64_1568_0_0_0 : ∀ a, (![1568, 0, 0, 0] : Fin 4 → Nat) a + S32x3x3x64.size a ≤ S1984x3x3x64.size a
  slices_S32x3x64x64_o0_0_50_0_S32x3x3x64 : S32x3x64x64.Slices ![0, 0, 50, 0] S32x3x3x64
  inb_S1984x3x3x64_S32x3x3x64_1600_0_0_0 : ∀ a, (![1600, 0, 0, 0] : Fin 4 → Nat) a + S32x3x3x64.size a ≤ S1984x3x3x64.size a
  slices_S32x3x64x64_o0_0_51_0_S32x3x3x64 : S32x3x64x64.Slices ![0, 0, 51, 0] S32x3x3x64
  inb_S1984x3x3x64_S32x3x3x64_1632_0_0_0 : ∀ a, (![1632, 0, 0, 0] : Fin 4 → Nat) a + S32x3x3x64.size a ≤ S1984x3x3x64.size a
  slices_S32x3x64x64_o0_0_52_0_S32x3x3x64 : S32x3x64x64.Slices ![0, 0, 52, 0] S32x3x3x64
  inb_S1984x3x3x64_S32x3x3x64_1664_0_0_0 : ∀ a, (![1664, 0, 0, 0] : Fin 4 → Nat) a + S32x3x3x64.size a ≤ S1984x3x3x64.size a
  slices_S32x3x64x64_o0_0_53_0_S32x3x3x64 : S32x3x64x64.Slices ![0, 0, 53, 0] S32x3x3x64
  inb_S1984x3x3x64_S32x3x3x64_1696_0_0_0 : ∀ a, (![1696, 0, 0, 0] : Fin 4 → Nat) a + S32x3x3x64.size a ≤ S1984x3x3x64.size a
  slices_S32x3x64x64_o0_0_54_0_S32x3x3x64 : S32x3x64x64.Slices ![0, 0, 54, 0] S32x3x3x64
  inb_S1984x3x3x64_S32x3x3x64_1728_0_0_0 : ∀ a, (![1728, 0, 0, 0] : Fin 4 → Nat) a + S32x3x3x64.size a ≤ S1984x3x3x64.size a
  slices_S32x3x64x64_o0_0_55_0_S32x3x3x64 : S32x3x64x64.Slices ![0, 0, 55, 0] S32x3x3x64
  inb_S1984x3x3x64_S32x3x3x64_1760_0_0_0 : ∀ a, (![1760, 0, 0, 0] : Fin 4 → Nat) a + S32x3x3x64.size a ≤ S1984x3x3x64.size a
  slices_S32x3x64x64_o0_0_56_0_S32x3x3x64 : S32x3x64x64.Slices ![0, 0, 56, 0] S32x3x3x64
  inb_S1984x3x3x64_S32x3x3x64_1792_0_0_0 : ∀ a, (![1792, 0, 0, 0] : Fin 4 → Nat) a + S32x3x3x64.size a ≤ S1984x3x3x64.size a
  slices_S32x3x64x64_o0_0_57_0_S32x3x3x64 : S32x3x64x64.Slices ![0, 0, 57, 0] S32x3x3x64
  inb_S1984x3x3x64_S32x3x3x64_1824_0_0_0 : ∀ a, (![1824, 0, 0, 0] : Fin 4 → Nat) a + S32x3x3x64.size a ≤ S1984x3x3x64.size a
  slices_S32x3x64x64_o0_0_58_0_S32x3x3x64 : S32x3x64x64.Slices ![0, 0, 58, 0] S32x3x3x64
  inb_S1984x3x3x64_S32x3x3x64_1856_0_0_0 : ∀ a, (![1856, 0, 0, 0] : Fin 4 → Nat) a + S32x3x3x64.size a ≤ S1984x3x3x64.size a
  slices_S32x3x64x64_o0_0_59_0_S32x3x3x64 : S32x3x64x64.Slices ![0, 0, 59, 0] S32x3x3x64
  inb_S1984x3x3x64_S32x3x3x64_1888_0_0_0 : ∀ a, (![1888, 0, 0, 0] : Fin 4 → Nat) a + S32x3x3x64.size a ≤ S1984x3x3x64.size a
  slices_S32x3x64x64_o0_0_60_0_S32x3x3x64 : S32x3x64x64.Slices ![0, 0, 60, 0] S32x3x3x64
  inb_S1984x3x3x64_S32x3x3x64_1920_0_0_0 : ∀ a, (![1920, 0, 0, 0] : Fin 4 → Nat) a + S32x3x3x64.size a ≤ S1984x3x3x64.size a
  slices_S32x3x64x64_o0_0_61_0_S32x3x3x64 : S32x3x64x64.Slices ![0, 0, 61, 0] S32x3x3x64
  inb_S1984x3x3x64_S32x3x3x64_1952_0_0_0 : ∀ a, (![1952, 0, 0, 0] : Fin 4 → Nat) a + S32x3x3x64.size a ≤ S1984x3x3x64.size a
  hrank0 : 0 < grid0.rank
  k0_off1_inb : ∀ i : grid0.Coords, ∀ a, (k0_off1 i) a + S32x3x64x64.size a ≤ S32x64x64x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64x64x64.size a ≤ S32x64x64x64.size a
  hwx0_0 : ∀ i : grid0.Coords, EltTy.bits .f32 = 32 ∨ (Rect.block (s := S32x64x64x64) S32x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1984x3x3x64.size a ≤ S123008x3x3x64.size a
  hwx0_1 : ∀ i : grid0.Coords, EltTy.bits .f32 = 32 ∨ (Rect.block (s := S123008x3x3x64) S1984x3x3x64.size (cc0_transform_1 i) (hinb0_1 i)).WholeWords (EltTy.packing .f32)

variable [Facts₀]

abbrev win0_0 : Pipeline.Window sig grid0 :=
  Pipeline.Window.ofSpec (Memref.whole main_arg0) S32x64x64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1984x3x3x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x64 : Shape := ⟨4, ![32, 64, 64, 64]⟩
abbrev S62 : Shape := ⟨1, ![62]⟩
abbrev S_ : Shape := ⟨0, ![]⟩
abbrev S62x1 : Shape := ⟨2, ![62, 1]⟩
abbrev S3 : Shape := ⟨1, ![3]⟩
abbrev S1x3 : Shape := ⟨2, ![1, 3]⟩
abbrev S62x3 : Shape := ⟨2, ![62, 3]⟩
abbrev S62x1x3x1 : Shape := ⟨4, ![62, 1, 3, 1]⟩
abbrev S1x62x1x3 : Shape := ⟨4, ![1, 62, 1, 3]⟩
abbrev S62x62x3x3 : Shape := ⟨4, ![62, 62, 3, 3]⟩
abbrev S62x62x3x3x1 : Shape := ⟨5, ![62, 62, 3, 3, 1]⟩
abbrev S62x62x3x3x2 : Shape := ⟨5, ![62, 62, 3, 3, 2]⟩
abbrev S32x62x62x3x3x64 : Shape := ⟨6, ![32, 62, 62, 3, 3, 64]⟩
abbrev S62x62x32x3x3x64 : Shape := ⟨6, ![62, 62, 32, 3, 3, 64]⟩
abbrev S123008x3x3x64 : Shape := ⟨4, ![123008, 3, 3, 64]⟩

abbrev nBuf : Space → Nat
  | .hbm => 45
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S62, .i32⟩
  | .hbm, ⟨2, _⟩ => ⟨S_, .i32⟩
  | .hbm, ⟨3, _⟩ => ⟨S62, .i32⟩
  | .hbm, ⟨4, _⟩ => ⟨S62, .i32⟩
  | .hbm, ⟨5, _⟩ => ⟨S62x1, .i32⟩
  | .hbm, ⟨6, _⟩ => ⟨S3, .i32⟩
  | .hbm, ⟨7, _⟩ => ⟨S1x3, .i32⟩
  | .hbm, ⟨8, _⟩ => ⟨S62x3, .i32⟩
  | .hbm, ⟨9, _⟩ => ⟨S62x3, .i32⟩
  | .hbm, ⟨10, _⟩ => ⟨S62x3, .i32⟩
  | .hbm, ⟨11, _⟩ => ⟨S62, .i32⟩
  | .hbm, ⟨12, _⟩ => ⟨S_, .i32⟩
  | .hbm, ⟨13, _⟩ => ⟨S62, .i32⟩
  | .hbm, ⟨14, _⟩ => ⟨S62, .i32⟩
  | .hbm, ⟨15, _⟩ => ⟨S62x1, .i32⟩
  | .hbm, ⟨16, _⟩ => ⟨S3, .i32⟩
  | .hbm, ⟨17, _⟩ => ⟨S1x3, .i32⟩
  | .hbm, ⟨18, _⟩ => ⟨S62x3, .i32⟩
  | .hbm, ⟨19, _⟩ => ⟨S62x3, .i32⟩
  | .hbm, ⟨20, _⟩ => ⟨S62x3, .i32⟩
  | .hbm, ⟨21, _⟩ => ⟨S62x1x3x1, .i32⟩
  | .hbm, ⟨22, _⟩ => ⟨S1x62x1x3, .i32⟩
  | .hbm, ⟨23, _⟩ => ⟨S_, .i32⟩
  | .hbm, ⟨24, _⟩ => ⟨S62x1x3x1, .i32⟩
  | .hbm, ⟨25, _⟩ => ⟨S62x1x3x1, .i1⟩
  | .hbm, ⟨26, _⟩ => ⟨S_, .i32⟩
  | .hbm, ⟨27, _⟩ => ⟨S62x1x3x1, .i32⟩
  | .hbm, ⟨28, _⟩ => ⟨S62x1x3x1, .i32⟩
  | .hbm, ⟨29, _⟩ => ⟨S62x1x3x1, .i32⟩
  | .hbm, ⟨30, _⟩ => ⟨S_, .i32⟩
  | .hbm, ⟨31, _⟩ => ⟨S1x62x1x3, .i32⟩
  | .hbm, ⟨32, _⟩ => ⟨S1x62x1x3, .i1⟩
  | .hbm, ⟨33, _⟩ => ⟨S_, .i32⟩
  | .hbm, ⟨34, _⟩ => ⟨S1x62x1x3, .i32⟩
  | .hbm, ⟨35, _⟩ => ⟨S1x62x1x3, .i32⟩
  | .hbm, ⟨36, _⟩ => ⟨S1x62x1x3, .i32⟩
  | .hbm, ⟨37, _⟩ => ⟨S62x62x3x3, .i32⟩
  | .hbm, ⟨38, _⟩ => ⟨S62x62x3x3, .i32⟩
  | .hbm, ⟨39, _⟩ => ⟨S62x62x3x3x1, .i32⟩
  | .hbm, ⟨40, _⟩ => ⟨S62x62x3x3x1, .i32⟩
  | .hbm, ⟨41, _⟩ => ⟨S62x62x3x3x2, .i32⟩
  | .hbm, ⟨42, _⟩ => ⟨S32x62x62x3x3x64, .f32⟩
  | .hbm, ⟨43, _⟩ => ⟨S62x62x32x3x3x64, .f32⟩
  | .hbm, ⟨44, _⟩ => ⟨S123008x3x3x64, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_c_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_3 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S3_S1x3_1 : S3.BroadcastsInDim S1x3 (![1] : Fin 1 → Fin S1x3.rank)
  bcast_S62x1_S62x3_0_1 : S62x1.BroadcastsInDim S62x3 (![0, 1] : Fin 2 → Fin S62x3.rank)
  bcast_S1x3_S62x3_0_1 : S1x3.BroadcastsInDim S62x3 (![0, 1] : Fin 2 → Fin S62x3.rank)
  bcast_S62x3_S62x1x3x1_0_2 : S62x3.BroadcastsInDim S62x1x3x1 (![0, 2] : Fin 2 → Fin S62x1x3x1.rank)
  bcast_S62x3_S1x62x1x3_1_3 : S62x3.BroadcastsInDim S1x62x1x3 (![1, 3] : Fin 2 → Fin S1x62x1x3.rank)
  bcast_S_S62x1x3x1 : S_.BroadcastsInDim S62x1x3x1 (![] : Fin 0 → Fin S62x1x3x1.rank)
  bcast_S_S1x62x1x3 : S_.BroadcastsInDim S1x62x1x3 (![] : Fin 0 → Fin S1x62x1x3.rank)
  bcast_S62x1x3x1_S62x62x3x3_0_1_2_3 : S62x1x3x1.BroadcastsInDim S62x62x3x3 (![0, 1, 2, 3] : Fin 4 → Fin S62x62x3x3.rank)
  bcast_S1x62x1x3_S62x62x3x3_0_1_2_3 : S1x62x1x3.BroadcastsInDim S62x62x3x3 (![0, 1, 2, 3] : Fin 4 → Fin S62x62x3x3.rank)
  bcast_S62x62x3x3_S62x62x3x3x1_0_1_2_3 : S62x62x3x3.BroadcastsInDim S62x62x3x3x1 (![0, 1, 2, 3] : Fin 4 → Fin S62x62x3x3x1.rank)
  concatenates_S62x62x3x3x1_S62x62x3x3x1_S62x62x3x3x2_d4 : Shape.Concatenates [S62x62x3x3x1, S62x62x3x3x1] S62x62x3x3x2 4
  transposes_S32x62x62x3x3x64_S62x62x32x3x3x64_1_2_0_3_4_5 : S32x62x62x3x3x64.Transposes [1, 2, 0, 3, 4, 5] S62x62x32x3x3x64
  shapeCasts_S62x62x32x3x3x64_S123008x3x3x64 : S62x62x32x3x3x64.ShapeCasts S123008x3x3x64
  gather_S32x64x64x64_S62x62x3x3x2_S32x62x62x3x3x64_05_12_n_n_12_4_321164_wf : GatherDims.WF S32x64x64x64 S62x62x3x3x2 S32x62x62x3x3x64 [0, 5] [1, 2] [] [1, 2] [] 4 ![32, 1, 1, 64]

variable [Facts₀]

def gather_S32x64x64x64_S62x62x3x3x2_S32x62x62x3x3x64_05_12_n_n_12_4_321164 : GatherDims S32x64x64x64 S62x62x3x3x2 S32x62x62x3x3x64 where
  offsetDims := [0, 5]
  collapsedSliceDims := [1, 2]
  operandBatchingDims := []
  startIndicesBatchingDims := []
  startIndexMap := [1, 2]
  indexVectorDim := 4
  sliceSizes := ![32, 1, 1, 64]
  wf := gather_S32x64x64x64_S62x62x3x3x2_S32x62x62x3x3x64_05_12_n_n_12_4_321164_wf

class Facts : Prop extends Facts₀ where

variable [Facts]
-- ==== Proof.Patches.lean ====
/-
  The specification: all 3×3 windows of an image batch, window-major.

  For `x : [32, 64, 64, 64]` (batch, row, column, channel) the result `[123008, 3, 3, 64]` lists, for every window position
  (r, q) with 0 ≤ r, q < 62 in row-major order and then every batch entry b, the window `x[b, r .. r+2, q .. q+2, :]`:
  result row n = (r·62 + q)·32 + b, so r = n / 1984, q = n / 32 mod 62, b = n mod 32, and
      patches x (n, kh, kw, c) = x (b, r + kh, q + kw, c).
  One output row r of windows (the 1984 result rows n with n / 1984 = r) only reads the three input rows r, r+1, r+2;
  `rowPatches` is that block as a function of those three rows: with n = q·32 + b inside the block,
      rowPatches v (n, kh, kw, c) = v (b, kh, q + kw, c).
-/
import Idealize.ShloMosaic.Lib.ValueIdx

namespace Cert.Patches

open Idealize.ShloMosaic Idealize.ShloMosaic.ValueIdx

variable {α : Type}

/-- Every 3×3 window of every image, window position outermost and the batch inside it. -/
def patches (x : (⟨4, ![32, 64, 64, 64]⟩ : Shape).Idx → α) : (⟨4, ![123008, 3, 3, 64]⟩ : Shape).Idx → α := fun j =>
  x (ix4 (⟨(j 0).val % 32, Nat.mod_lt _ (by decide)⟩ : Fin 32)
    (⟨(j 0).val / 1984 + (j 1).val, by
      have h0 : (j 0).val < 123008 := (j 0).isLt
      have h1 : (j 1).val < 3 := (j 1).isLt
      omega⟩ : Fin 64)
    (⟨(j 0).val / 32 % 62 + (j 2).val, by
      have h2 : (j 2).val < 3 := (j 2).isLt
      omega⟩ : Fin 64)
    (⟨(j 3).val, (j 3).isLt⟩ : Fin 64))

/-- One output row of windows from the three input rows it reads. -/
def rowPatches (v : (⟨4, ![32, 3, 64, 64]⟩ : Shape).Idx → α) : (⟨4, ![1984, 3, 3, 64]⟩ : Shape).Idx → α := fun y =>
  v (ix4 (⟨(y 0).val % 32, Nat.mod_lt _ (by decide)⟩ : Fin 32)
    (⟨(y 1).val, (y 1).isLt⟩ : Fin 3)
    (⟨(y 0).val / 32 + (y 2).val, by
      have h0 : (y 0).val < 1984 := (y 0).isLt
      have h2 : (y 2).val < 3 := (y 2).isLt
      omega⟩ : Fin 64)
    (⟨(y 3).val, (y 3).isLt⟩ : Fin 64))

end Cert.Patches
-- ==== Proof.KernelBlock.lean ====
/-
  What the kernel body leaves in its output block.

  At a grid point the body loads three consecutive input rows (all batches, all columns, all channels) as one value
  `v : [32, 3, 64, 64]` and then, for each of the 62 column positions q, stores the slice of columns q, q+1, q+2 of `v`
  — a `[32, 3, 3, 64]` value — at block rows [32·q, 32·q + 32). So entry (n, kh, kw, c) of the block, with q = n / 32 and
  b = n mod 32, is `v (b, kh, q + kw, c)`: the block is `rowPatches v`. Each of the 62 stored pieces agrees with that one
  function under its own rectangle, the rectangles tile the block, and so the block read back is the function.
-/
import proofs.«119941_j27934467293596_1_alg».proof.Proof.Gen.KernelIdeal.Frame
import proofs.«119941_j27934467293596_1_alg».proof.Proof.Patches
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- ONE STORE: the slice of columns `col, col+1, col+2` of the loaded rows, placed at block rows `[32·col, 32·col + 32)`, is
    `rowPatches` of the loaded rows under that rectangle (row `32·col + b` of the block is window column `col`, batch `b`). -/
theorem slice_piece {α : Type} (v : S32x3x64x64.Idx → α) (o col : Nat) (ho : o = 32 * col)
    (inb : ∀ a, (![o, 0, 0, 0] : Fin 4 → Nat) a + S32x3x3x64.size a ≤ S1984x3x3x64.size a)
    (hs : S32x3x64x64.Slices ![0, 0, col, 0] S32x3x3x64)
    (z : (Rect.unit (s := S1984x3x3x64) ![o, 0, 0, 0] S32x3x3x64.size inb).shape.Idx) :
    extractStridedSlice S32x3x3x64 ![0, 0, col, 0] v hs z
      = Cert.Patches.rowPatches v ((Rect.unit (s := S1984x3x3x64) ![o, 0, 0, 0] S32x3x3x64.size inb).emb z) := by
  subst ho
  unfold Cert.Patches.rowPatches
  refine extractStridedSlice_apply _ v hs z _ (fun a => ?_)
  have z0 : (z 0).val < 32 := (z 0).isLt
  match a with
  | ⟨0, _⟩ => show (32 * col + 1 * (z 0).val) % 32 = 0 + (z 0).val; omega
  | ⟨1, _⟩ => show 0 + 1 * (z 1).val = 0 + (z 1).val; omega
  | ⟨2, _⟩ => show (32 * col + 1 * (z 0).val) / 32 + (0 + 1 * (z 2).val) = col + (z 2).val; omega
  | ⟨3, _⟩ => show 0 + 1 * (z 3).val = 0 + (z 3).val; omega

/-- EVERY PIECE the body's run found is, under its rectangle, the block `rowPatches` of the three loaded rows: the store at
    block rows [32·q, 32·q + 32) holds the slice of columns q, q+1, q+2. -/
theorem pieces_rowPatches (c : Dev nD) (i : grid0.Coords) (arg1 : Memref sig .tc .vmem S32x64x64x64 .f32) (harg1 : arg1.IsWhole)
    (arg2 : Memref sig .tc .vmem S1984x3x3x64 .f32) (harg2 : arg2.IsWhole) (x0 : Vec F S32x64x64x64 .f32) :
    ∀ p ∈ (kernelRun0_A (F := F) c i arg1 harg1 arg2 harg2 x0).1, ∀ z : p.1.shape.Idx,
      p.2 z = Cert.Patches.rowPatches (View.readAt (Elt F) arg1.view
        (Rect.unit (s := S32x64x64x64) (k0_off1 i) S32x3x64x64.size (k0_off1_inb i)).toLoadRect (harg1.unread x0)) (p.1.emb z) := by
  unfold kernelRun0_A
  dsimp only
  sl_unfold_words
  generalize View.readAt (Elt F) arg1.view _ (harg1.unread x0) = V
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro z; exact slice_piece V _ _ (by decide) _ (by decide) z)

/-- WHAT THE BODY LEAVES in the output block, on whole staging buffers of which the input's holds `x0`: `rowPatches` of
    the three rows of `x0` the point's load reads. -/
theorem out_block (c : Dev nD) (i : grid0.Coords) (arg1 : Memref sig .tc .vmem S32x64x64x64 .f32) (harg1 : arg1.IsWhole)
    (arg2 : Memref sig .tc .vmem S1984x3x3x64 .f32) (harg2 : arg2.IsWhole) (x0 : Vec F S32x64x64x64 .f32) :
    out0_A_1 (F := F) c i arg1 harg1 arg2 harg2 x0
      = Cert.Patches.rowPatches (View.ld x0 (Rect.unit (s := S32x64x64x64) (k0_off1 i) S32x3x64x64.size (k0_off1_inb i))) := by
  funext y
  unfold out0_A_1
  rw [View.read_writes_apply_eq_canon _ _ y _ (cover0_A_1 c i arg1 harg1 arg2 harg2 x0 y),
    View.canon_apply_of_pieces _ _ (pieces_rowPatches c i arg1 harg1 arg2 harg2 x0) y (cover0_A_1 c i arg1 harg1 arg2 harg2 x0 y),
    View.readAt_eq_ld, harg1.read_unread]

end Cert.KernelIdeal.Block

end
-- ==== Proof.KernelValue.lean ====
/-
  The kernel's output array is the window function of its argument.

  Grid point t (0 ≤ t < 62) stages the whole argument array as its input block, loads input rows t, t+1, t+2 and writes back
  output rows [1984·t, 1984·t + 1984): output window row r = t. What it writes is `rowPatches` of the three rows
  (KernelBlock), which is the block of `patches x` at those output rows: for n = 1984·t + n' with n' < 1984,
  n / 1984 = t, n / 32 mod 62 = n' / 32 and n mod 32 = n' mod 32. The 62 blocks tile the 123008 output rows, so the
  output array ends as `patches x`.
-/
import proofs.«119941_j27934467293596_1_alg».proof.Proof.Gen.KernelIdeal.Value
import proofs.«119941_j27934467293596_1_alg».proof.Proof.KernelBlock
import proofs.«119941_j27934467293596_1_alg».proof.Proof.Patches

set_option maxRecDepth 16384

noncomputable section

namespace Cert.KernelIdeal.Windows

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- The printed index maps and the load's offsets, decided over the 62 grid points: the input window is the whole array at
    every point, the output window's block index is the point along the first axis, and the body's load starts at input
    row `t`. -/
theorem point_facts : ∀ t : Fin cfg0.N,
    win0_0.index t (0 : Fin 4) = 0 ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ k0_off1 (grid0.coords t) (0 : Fin 4) = 0 ∧ k0_off1 (grid0.coords t) (1 : Fin 4) = t.val
    ∧ k0_off1 (grid0.coords t) (2 : Fin 4) = 0 ∧ k0_off1 (grid0.coords t) (3 : Fin 4) = 0 :=
  (by decide +kernel : ∀ t : Fin grid0.N, _)

/-- WHAT POINT `t` WRITES BACK is block `t` of the window function of the argument array as the region finds it. -/
theorem flushed_patches (c : Dev nD) (t : Fin cfg0.N) :
    (dats m 0 c).flushed 1 t = ((cfg0.win 1).blk t).view.read (Elt F) (Cert.Patches.patches (V m c main_arg0)) := by
  rw [Value.flushed1_A m c t,
    Block.out_block c (grid0.coords t) (ms0_0 t) (hs0_0 t) (ms0_1 t) (hs0_1 t) (iblk m c 0 t)]
  obtain ⟨a0, a1, a2, a3, b0, b1, b2, b3, o0, o1, o2, o3⟩ := point_facts t
  funext y
  have y0 : (y 0).val < 1984 := (y 0).isLt
  have y1 : (y 1).val < 3 := (y 1).isLt
  have y2 : (y 2).val < 3 := (y 2).isLt
  have y3 : (y 3).val < 64 := (y 3).isLt
  show Cert.Patches.rowPatches (View.ld (iblk m c 0 t) (Rect.unit (s := S32x64x64x64) (k0_off1 (grid0.coords t)) S32x3x64x64.size (k0_off1_inb (grid0.coords t)))) y
    = Cert.Patches.patches (V m c main_arg0) (((cfg0.win 1).blk t).view.emb y)
  unfold Cert.Patches.rowPatches Cert.Patches.patches View.ld iblk
  show V m c main_arg0 (((cfg0.win 0).blk t).view.emb ((Rect.unit (s := S32x64x64x64) (k0_off1 (grid0.coords t)) S32x3x64x64.size (k0_off1_inb (grid0.coords t))).idx
      (ix4 (⟨(y 0).val % 32, Nat.mod_lt _ (by decide)⟩ : Fin 32) (⟨(y 1).val, y1⟩ : Fin 3) (⟨(y 0).val / 32 + (y 2).val, by omega⟩ : Fin 64) (⟨(y 3).val, y3⟩ : Fin 64)))) = _
  refine congrArg (V m c main_arg0) (funext fun a => Fin.ext ?_)
  match a with
  | ⟨0, _⟩ =>
    show win0_0.index t (0 : Fin 4) * 32 + 1 * (k0_off1 (grid0.coords t) (0 : Fin 4) + 1 * ((y 0).val % 32))
      = (win0_1.index t (0 : Fin 4) * 1984 + 1 * (y 0).val) % 32
    omega
  | ⟨1, _⟩ =>
    show win0_0.index t (1 : Fin 4) * 64 + 1 * (k0_off1 (grid0.coords t) (1 : Fin 4) + 1 * (y 1).val)
      = (win0_1.index t (0 : Fin 4) * 1984 + 1 * (y 0).val) / 1984 + (win0_1.index t (1 : Fin 4) * 3 + 1 * (y 1).val)
    omega
  | ⟨2, _⟩ =>
    show win0_0.index t (2 : Fin 4) * 64 + 1 * (k0_off1 (grid0.coords t) (2 : Fin 4) + 1 * ((y 0).val / 32 + (y 2).val))
      = (win0_1.index t (0 : Fin 4) * 1984 + 1 * (y 0).val) / 32 % 62 + (win0_1.index t (2 : Fin 4) * 3 + 1 * (y 2).val)
    omega
  | ⟨3, _⟩ =>
    show win0_0.index t (3 : Fin 4) * 64 + 1 * (k0_off1 (grid0.coords t) (3 : Fin 4) + 1 * (y 3).val)
      = win0_1.index t (3 : Fin 4) * 64 + 1 * (y 3).val
    omega

/-- An output index is in point `t`'s block iff each coordinate is in the block's range on its axis. -/
theorem mem_block (t : Fin cfg0.N) (i : S123008x3x3x64.Idx) :
    i ∈ ((cfg0.win 1).blk t).view.set ↔ ∀ a : Fin 4, win0_1.index t a * S1984x3x3x64.size a ≤ (i a).val
      ∧ (i a).val < win0_1.index t a * S1984x3x3x64.size a + S1984x3x3x64.size a := by
  show i ∈ ((View.whole main_v0).slice (win0_1.rect t)).set ↔ _
  rw [View.set_slice_whole, Rect.mem_set_unit]
  exact Iff.rfl

/-- The 62 blocks tile the output: result row `n` is in the block of point `n / 1984`. -/
theorem covered (i : S123008x3x3x64.Idx) :
    ∃ t : Fin cfg0.N, (cfg0.win 1).flush t = true ∧ i ∈ ((cfg0.win 1).blk t).view.set := by
  have h0 : (i 0).val < 123008 := (i 0).isLt
  have h1 : (i 1).val < 3 := (i 1).isLt
  have h2 : (i 2).val < 3 := (i 2).isLt
  have h3 : (i 3).val < 64 := (i 3).isLt
  have hN : cfg0.N = 62 := by decide
  have hlt : (i 0).val / 1984 < cfg0.N := by rw [hN]; omega
  refine ⟨⟨(i 0).val / 1984, hlt⟩, flush0_1 _, ?_⟩
  rw [mem_block]
  obtain ⟨-, -, -, -, b0, b1, b2, b3, -⟩ := point_facts ⟨(i 0).val / 1984, hlt⟩
  have b0' : win0_1.index ⟨(i 0).val / 1984, hlt⟩ (0 : Fin 4) = (i 0).val / 1984 := b0
  intro a
  match a with
  | ⟨0, _⟩ =>
    show win0_1.index ⟨(i 0).val / 1984, hlt⟩ (0 : Fin 4) * 1984 ≤ (i 0).val
      ∧ (i 0).val < win0_1.index ⟨(i 0).val / 1984, hlt⟩ (0 : Fin 4) * 1984 + 1984
    omega
  | ⟨1, _⟩ =>
    show win0_1.index ⟨(i 0).val / 1984, hlt⟩ (1 : Fin 4) * 3 ≤ (i 1).val
      ∧ (i 1).val < win0_1.index ⟨(i 0).val / 1984, hlt⟩ (1 : Fin 4) * 3 + 3
    omega
  | ⟨2, _⟩ =>
    show win0_1.index ⟨(i 0).val / 1984, hlt⟩ (2 : Fin 4) * 3 ≤ (i 2).val
      ∧ (i 2).val < win0_1.index ⟨(i 0).val / 1984, hlt⟩ (2 : Fin 4) * 3 + 3
    omega
  | ⟨3, _⟩ =>
    show win0_1.index ⟨(i 0).val / 1984, hlt⟩ (3 : Fin 4) * 64 ≤ (i 3).val
      ∧ (i 3).val < win0_1.index ⟨(i 0).val / 1984, hlt⟩ (3 : Fin 4) * 64 + 64
    omega

/-- THE OUTPUT ARRAY after the run is the window function of the argument array. -/
theorem final_patches (c : Dev nD) :
    (dats m 0 c).arrAt 1 cfg0.N = Cert.Patches.patches (m ((c : Thread nD τ).loc main_arg0)) :=
  (dats m 0 c).arrAt_eq_of_cover 1 (Cert.Patches.patches (V m c main_arg0)) (fun t _ => flushed_patches m c t) covered

/-- The kernel's run, read: every weakly fair execution terminates with the result array at the window function of the
    argument and the argument unchanged. -/
theorem run : θ_run defs (onTc (τ := τ) (main (F := F))) ⟨m, fun _ => 0, ρ⟩ fun r => ∀ c : Dev nD,
      r.2.mem ((c : Thread nD τ).loc main_v0) = Cert.Patches.patches (m ((c : Thread nD τ).loc main_arg0))
      ∧ r.2.mem ((c : Thread nD τ).loc main_arg0) = m ((c : Thread nD τ).loc main_arg0) :=
  (θ_run defs _ _).mono (fun r h c => ⟨(h c).1.trans (final_patches m c), (h c).2⟩) (Value.run_blocks m ρ)

end Cert.KernelIdeal.Windows

end
-- ==== Proof.LibSignedWords.lean ====
/-
  Signed comparisons of 32-bit words that hold small numbers.

  A kernel or a reference that masks by position compares words built from `iota`s and tile offsets: numbers far below
  2³¹. On such words the signed orders are the orders of the numbers held, so a mask bit is a comparison of naturals.
  Stated for any two words below 2³¹, whatever expressions they are; the caller shows the bound and the value of each
  word (`BitVec.toNat_add`, `BitVec.toNat_mul`, `BitVec.toNat_ofNat`, then `omega`).
-/
import Idealize.ShloMosaic.PureOps.Ideal

namespace Cert.Lib.SignedWords

open Idealize.ShloMosaic

/-- A 32-bit word below 2³¹ read as a signed integer is the number it holds. -/
theorem toInt_of_small (u : BitVec 32) (h : u.toNat < 2 ^ 31) : u.toInt = (u.toNat : Int) := by
  rw [BitVec.toInt_eq_toNat_cond]
  rw [if_pos (by omega)]

/-- `cmpi sgt u v` on two words below 2³¹ is 1 exactly when the number in `v` is below the number in `u`. -/
theorem sgt_words (u v : BitVec 32) (hu : u.toNat < 2 ^ 31) (hv : v.toNat < 2 ^ 31) :
    IntOp.cmpi .sgt u v = if v.toNat < u.toNat then 1#1 else 0#1 := by
  show BitVec.ofBool (v.slt u) = _
  rw [BitVec.slt_eq_decide, toInt_of_small u hu, toInt_of_small v hv]
  by_cases h : v.toNat < u.toNat
  · rw [if_pos h, decide_eq_true (by exact_mod_cast h)]; rfl
  · rw [if_neg h, decide_eq_false (by exact_mod_cast h)]; rfl

/-- `cmpi sge u v` on two words below 2³¹ is 1 exactly when the number in `v` is at most the number in `u`. -/
theorem sge_words (u v : BitVec 32) (hu : u.toNat < 2 ^ 31) (hv : v.toNat < 2 ^ 31) :
    IntOp.cmpi .sge u v = if v.toNat ≤ u.toNat then 1#1 else 0#1 := by
  show BitVec.ofBool (v.sle u) = _
  rw [BitVec.sle_eq_decide, toInt_of_small u hu, toInt_of_small v hv]
  by_cases h : v.toNat ≤ u.toNat
  · rw [if_pos h, decide_eq_true (by exact_mod_cast h)]; rfl
  · rw [if_neg h, decide_eq_false (by exact_mod_cast h)]; rfl

/-- `cmpi slt u v` on two words below 2³¹ is 1 exactly when the number in `u` is below the number in `v`. -/
theorem slt_words (u v : BitVec 32) (hu : u.toNat < 2 ^ 31) (hv : v.toNat < 2 ^ 31) :
    IntOp.cmpi .slt u v = if u.toNat < v.toNat then 1#1 else 0#1 := by
  show BitVec.ofBool (u.slt v) = _
  rw [BitVec.slt_eq_decide, toInt_of_small u hu, toInt_of_small v hv]
  by_cases h : u.toNat < v.toNat
  · rw [if_pos h, decide_eq_true (by exact_mod_cast h)]; rfl
  · rw [if_neg h, decide_eq_false (by exact_mod_cast h)]; rfl

/-- `cmpi sle u v` on two words below 2³¹ is 1 exactly when the number in `u` is at most the number in `v`. -/
theorem sle_words (u v : BitVec 32) (hu : u.toNat < 2 ^ 31) (hv : v.toNat < 2 ^ 31) :
    IntOp.cmpi .sle u v = if u.toNat ≤ v.toNat then 1#1 else 0#1 := by
  show BitVec.ofBool (u.sle v) = _
  rw [BitVec.sle_eq_decide, toInt_of_small u hu, toInt_of_small v hv]
  by_cases h : u.toNat ≤ v.toNat
  · rw [if_pos h, decide_eq_true (by exact_mod_cast h)]; rfl
  · rw [if_neg h, decide_eq_false (by exact_mod_cast h)]; rfl

end Cert.Lib.SignedWords
-- ==== Proof.StartWords.lean ====
/-
  The start words of the reference's gather.

  The reference builds, for every output window (r, q) and position (kh, kw) inside it, the pair (row, column) it reads:
  row = r·1 + kh and column = q·1 + kw from `iota`s, each then moved up by 64 where negative (an index counted from the
  end), and the two joined along a last axis of length 2. All of it is 32-bit word arithmetic on numbers below 64, so the
  wrap never applies: the pair is (r + kh, q + kw).
-/
import proofs.«119941_j27934467293596_1_alg».proof.Proof.Gen.ReferenceIdeal.Read
import proofs.«119941_j27934467293596_1_alg».proof.Proof.LibSignedWords
import Idealize.ShloMosaic.Lib.ValueIdx

noncomputable section

namespace Cert.ReferenceIdeal.StartWords

open Cert.ReferenceIdeal Cert.ReferenceIdeal.Gen Cert.ReferenceIdeal.Read
open Idealize.ShloMosaic Idealize.ShloMosaic.ValueIdx

variable {F : FTy → Type} [FloatOps F]

/-- A window's first row (or column) `a` times one plus the position `k` inside the window, moved up by 64 where the sum
    reads negative: for `a < 62` and `k < 3` the word holding `a + k` — the sum is below 2³¹, so it does not read negative. -/
theorem wrap_word (a k : Nat) (ha : a < 62) (hk : k < 3) :
    Scalar.select (IntOp.cmpi .slt (IntOp.addi (IntOp.muli (BitVec.ofNat 32 a) 1#32) (BitVec.ofNat 32 k)) 0#32)
      (IntOp.addi (IntOp.addi (IntOp.muli (BitVec.ofNat 32 a) 1#32) (BitVec.ofNat 32 k)) 64#32)
      (IntOp.addi (IntOp.muli (BitVec.ofNat 32 a) 1#32) (BitVec.ofNat 32 k)) = BitVec.ofNat 32 (a + k) := by
  have hw : IntOp.addi (IntOp.muli (BitVec.ofNat 32 a) 1#32) (BitVec.ofNat 32 k) = BitVec.ofNat 32 (a + k) := by
    unfold IntOp.addi IntOp.muli
    rw [BitVec.mul_one, BitVec.ofNat_add]
  rw [hw]
  have hn : (BitVec.ofNat 32 (a + k)).toNat = a + k := by
    rw [BitVec.toNat_ofNat]; omega
  rw [Cert.Lib.SignedWords.slt_words _ _ (by rw [hn]; omega) (by decide), if_neg (by simp)]
  exact select_zero _ _

/-- The first component of the pair at `(r, q, kh, kw)`: the row `r + kh`. -/
theorem row_word (r q : Fin 62) (kh kw : Fin 3) :
    val_main_v34 (F := F) (ix5 r q kh kw ⟨0, by omega⟩) = BitVec.ofNat 32 (r.val + kh.val) := by
  unfold val_main_v34
  refine (concatenate_pair_apply_left (t := S62x62x3x3x2) (s₁ := S62x62x3x3x1) (s₂ := S62x62x3x3x1) 4 (val_main_v32 (F := F)) (val_main_v33 (F := F))
    concatenates_S62x62x3x3x1_S62x62x3x3x1_S62x62x3x3x2_d4 (ix5 r q kh kw ⟨0, by omega⟩) rfl (ix5 r q kh kw ⟨0, Nat.one_pos⟩) (fun b => ?_)).trans ?_
  · match b with
    | ⟨0, _⟩ => rfl
    | ⟨1, _⟩ => rfl
    | ⟨2, _⟩ => rfl
    | ⟨3, _⟩ => rfl
    | ⟨4, _⟩ => rfl
  · simp only [val_main_v32_apply, val_main_v30_apply, val_main_v24_apply, val_main_v21_apply, val_main_v23_apply,
      val_main_v18_apply, val_main_v20_apply, val_main_v22_apply, val_main_c_1_apply, val_main_c_2_apply,
      val_main_v8_apply, val_main_v6_apply, val_main_v7_apply, val_main_v3_apply, val_main_v5_apply,
      val_main_v2_apply, val_main_v4_apply, val_main_v0_apply, val_main_v1_apply, val_main_c_apply]
    exact wrap_word r.val kh.val r.isLt kh.isLt

/-- The second component of the pair at `(r, q, kh, kw)`: the column `q + kw`. -/
theorem col_word (r q : Fin 62) (kh kw : Fin 3) :
    val_main_v34 (F := F) (ix5 r q kh kw ⟨1, by omega⟩) = BitVec.ofNat 32 (q.val + kw.val) := by
  unfold val_main_v34
  refine (concatenate_pair_apply_right (t := S62x62x3x3x2) (s₁ := S62x62x3x3x1) (s₂ := S62x62x3x3x1) 4 (val_main_v32 (F := F)) (val_main_v33 (F := F))
    concatenates_S62x62x3x3x1_S62x62x3x3x1_S62x62x3x3x2_d4 (ix5 r q kh kw ⟨1, by omega⟩) rfl rfl (ix5 r q kh kw ⟨0, Nat.one_pos⟩) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · simp only [val_main_v33_apply, val_main_v31_apply, val_main_v29_apply, val_main_v26_apply, val_main_v28_apply,
      val_main_v19_apply, val_main_v25_apply, val_main_v27_apply, val_main_c_3_apply, val_main_c_4_apply,
      val_main_v17_apply, val_main_v15_apply, val_main_v16_apply, val_main_v12_apply, val_main_v14_apply,
      val_main_v11_apply, val_main_v13_apply, val_main_v9_apply, val_main_v10_apply, val_main_c_0_apply]
    exact wrap_word q.val kw.val q.isLt kw.isLt

end Cert.ReferenceIdeal.StartWords

end
-- ==== Proof.LibWindowGather.lean ====
/-
  A gather of sliding windows.

  An operand `[B, H, W, C]` gathered at start indices `[R, Q, KH, KW, 2]` whose last axis holds a (row, column)
  pair, with offset axes the batch and the channel (offset_dims [0, 5]), the two spatial axes collapsed
  (collapsed_slice_dims [1, 2]), start_index_map [1, 2], index_vector_dim 4 and slices `[B, 1, 1, C]`: what
  `x[:, rows[:, None, :, None], cols[None, :, None, :], :]` lowers to. Result entry `(b, r, q, kh, kw, c)` is the operand at
  batch `b`, channel `c`, and at the row and column the pair `(r, q, kh, kw, ·)` holds, each read as a signed integer and
  clamped into the axis (`[0, H − 1]`, `[0, W − 1]`), as a gather clamps every start index.
-/
import Idealize.ShloMosaic.Lib.ValueIdx
import Idealize.ShloMosaic.Lib.ValueIdxRank6

noncomputable section

namespace Cert.Lib.WindowGather

open Idealize.ShloMosaic Idealize.ShloMosaic.ValueIdx

variable {α : Type}

/-- Those dimension numbers, for any extents; their conditions `wf` are decided on a program's literal shapes. -/
abbrev windowDims (B H W C R Q KH KW : Nat)
    (wf : GatherDims.WF ⟨4, ![B, H, W, C]⟩ ⟨5, ![R, Q, KH, KW, 2]⟩ ⟨6, ![B, R, Q, KH, KW, C]⟩ [0, 5] [1, 2] [] [1, 2] [] 4 ![B, 1, 1, C]) :
    GatherDims ⟨4, ![B, H, W, C]⟩ ⟨5, ![R, Q, KH, KW, 2]⟩ ⟨6, ![B, R, Q, KH, KW, C]⟩ where
  offsetDims := [0, 5]
  collapsedSliceDims := [1, 2]
  operandBatchingDims := []
  startIndicesBatchingDims := []
  startIndexMap := [1, 2]
  indexVectorDim := 4
  sliceSizes := ![B, 1, 1, C]
  wf := wf

/-- THE GATHER READ AT `(b, r, q, kh, kw, c)`: the operand at batch `b`, channel `c`, at the row the start word
    `(r, q, kh, kw, 0)` holds and the column the start word `(r, q, kh, kw, 1)` holds, each read signed and clamped into
    its axis. -/
theorem gather_window_apply {B H W C R Q KH KW w : Nat} (hH : 0 < H) (hW : 0 < W)
    (wf : GatherDims.WF ⟨4, ![B, H, W, C]⟩ ⟨5, ![R, Q, KH, KW, 2]⟩ ⟨6, ![B, R, Q, KH, KW, C]⟩ [0, 5] [1, 2] [] [1, 2] [] 4 ![B, 1, 1, C])
    (x : (⟨4, ![B, H, W, C]⟩ : Shape).Idx → α) (idx : IVec ⟨5, ![R, Q, KH, KW, 2]⟩ w)
    (b : Fin B) (r : Fin R) (q : Fin Q) (kh : Fin KH) (kw : Fin KW) (c : Fin C) :
    Host.gather (windowDims B H W C R Q KH KW wf) x idx (ix6 b r q kh kw c)
      = x (ix4 b ⟨min (idx (ix5 r q kh kw ⟨0, by omega⟩)).toInt.toNat (H - 1), by omega⟩
            ⟨min (idx (ix5 r q kh kw ⟨1, by omega⟩)).toInt.toNat (W - 1), by omega⟩ c) := by
  unfold Host.gather
  congr 1
  funext a
  refine Fin.ext ?_
  show (windowDims B H W C R Q KH KW wf).start (ix6 b r q kh kw c) idx a
    + (windowDims B H W C R Q KH KW wf).batchCoord (ix6 b r q kh kw c) a
    + (windowDims B H W C R Q KH KW wf).offCoord (ix6 b r q kh kw c) a = _
  rw [GatherDims.batchCoord_eq_zero _ _ _ List.not_mem_nil, Nat.add_zero]
  match a with
  | ⟨0, h0⟩ =>
    -- the batch axis: no start word, the result's first offset coordinate
    have hs : (⟨0, h0⟩ : Fin 4) ∉ (windowDims B H W C R Q KH KW wf).startIndexMap := (by decide : (0 : Fin 4) ∉ ([1, 2] : List (Fin 4)))
    have hk : (⟨0, h0⟩ : Fin 4) ∈ (windowDims B H W C R Q KH KW wf).sKept :=
      (GatherDims.mem_sKept _ _).2 ⟨(by decide : (0 : Fin 4) ∉ ([1, 2] : List (Fin 4))), List.not_mem_nil⟩
    unfold GatherDims.start GatherDims.offCoord
    rw [dif_neg hs, dif_pos hk, Nat.zero_add]
    rfl
  | ⟨1, h1⟩ =>
    -- the row axis: the first start word, collapsed
    have hs : (⟨1, h1⟩ : Fin 4) ∈ (windowDims B H W C R Q KH KW wf).startIndexMap := (by decide : (1 : Fin 4) ∈ ([1, 2] : List (Fin 4)))
    have hk : (⟨1, h1⟩ : Fin 4) ∉ (windowDims B H W C R Q KH KW wf).sKept :=
      fun h => ((GatherDims.mem_sKept _ _).1 h).1 (by decide : (1 : Fin 4) ∈ ([1, 2] : List (Fin 4)))
    unfold GatherDims.start GatherDims.offCoord
    rw [dif_pos hs, dif_neg hk, Nat.add_zero]
    have hsi : (windowDims B H W C R Q KH KW wf).siIdx (ix6 b r q kh kw c)
        ⟨List.idxOf (⟨1, h1⟩ : Fin 4) (windowDims B H W C R Q KH KW wf).startIndexMap, List.idxOf_lt_length_iff.2 hs⟩
        = ix5 r q kh kw ⟨0, by omega⟩ := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨2, h2⟩ =>
    -- the column axis: the second start word, collapsed
    have hs : (⟨2, h2⟩ : Fin 4) ∈ (windowDims B H W C R Q KH KW wf).startIndexMap := (by decide : (2 : Fin 4) ∈ ([1, 2] : List (Fin 4)))
    have hk : (⟨2, h2⟩ : Fin 4) ∉ (windowDims B H W C R Q KH KW wf).sKept :=
      fun h => ((GatherDims.mem_sKept _ _).1 h).1 (by decide : (2 : Fin 4) ∈ ([1, 2] : List (Fin 4)))
    unfold GatherDims.start GatherDims.offCoord
    rw [dif_pos hs, dif_neg hk, Nat.add_zero]
    have hsi : (windowDims B H W C R Q KH KW wf).siIdx (ix6 b r q kh kw c)
        ⟨List.idxOf (⟨2, h2⟩ : Fin 4) (windowDims B H W C R Q KH KW wf).startIndexMap, List.idxOf_lt_length_iff.2 hs⟩
        = ix5 r q kh kw ⟨1, by omega⟩ := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨3, h3⟩ =>
    -- the channel axis: no start word, the result's second offset coordinate
    have hs : (⟨3, h3⟩ : Fin 4) ∉ (windowDims B H W C R Q KH KW wf).startIndexMap := (by decide : (3 : Fin 4) ∉ ([1, 2] : List (Fin 4)))
    have hk : (⟨3, h3⟩ : Fin 4) ∈ (windowDims B H W C R Q KH KW wf).sKept :=
      (GatherDims.mem_sKept _ _).2 ⟨(by decide : (3 : Fin 4) ∉ ([1, 2] : List (Fin 4))), List.not_mem_nil⟩
    unfold GatherDims.start GatherDims.offCoord
    rw [dif_neg hs, dif_pos hk, Nat.zero_add]
    rfl

end Cert.Lib.WindowGather

end
-- ==== Proof.RefValue.lean ====
/-
  The reference computes the window function.

  Its last three operations are a gather of whole (batch, channel) slabs at the (row, column) pairs of StartWords, a
  transpose that moves the batch axis inside the two window-position axes, and a reshape that fuses (r, q, b) into one
  axis. Read at a result index (n, kh, kw, c): the reshape keeps the row-major position, so n = (r·62 + q)·32 + b; the
  transpose reads the gather at (b, r, q, kh, kw, c); the gather reads x at (b, r + kh, q + kw, c), its two start words
  being r + kh and q + kw, both at most 63, so the clamp into [0, 63] leaves them.
-/
import proofs.«119941_j27934467293596_1_alg».proof.Proof.Gen.ReferenceIdeal.Read
import proofs.«119941_j27934467293596_1_alg».proof.Proof.StartWords
import proofs.«119941_j27934467293596_1_alg».proof.Proof.LibWindowGather
import proofs.«119941_j27934467293596_1_alg».proof.Proof.Patches
import Idealize.ShloMosaic.Lib.ValueIdxRank6
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- A start word holding a number below 64, read signed and clamped into [0, 63], is that number. -/
theorem clamp_word (n : Nat) (hn : n < 64) : min (BitVec.ofNat 32 n).toInt.toNat (64 - 1) = n := by
  have h : (BitVec.ofNat 32 n).toNat = n := by rw [BitVec.toNat_ofNat]; omega
  rw [Cert.Lib.SignedWords.toInt_of_small _ (by rw [h]; omega), Int.toNat_natCast, h]
  omega

/-- The gather at `(b, r, q, kh, kw, c)` is the argument at `(b, r + kh, q + kw, c)`. -/
theorem gather_entry (x0 : (⟨S32x64x64x64, .f32⟩ : BufTy).Contents (Elt F))
    (b : Fin 32) (r q : Fin 62) (kh kw : Fin 3) (c : Fin 64) :
    val_main_v35 (F := F) x0 (ix6 b r q kh kw c)
      = x0 (ix4 b (⟨r.val + kh.val, by omega⟩ : Fin 64) (⟨q.val + kw.val, by omega⟩ : Fin 64) c) := by
  unfold val_main_v35
  refine (Cert.Lib.WindowGather.gather_window_apply (B := 32) (H := 64) (W := 64) (C := 64) (R := 62) (Q := 62)
    (KH := 3) (KW := 3) (by decide) (by decide) _ x0 (val_main_v34 (F := F)) b r q kh kw c).trans ?_
  refine congrArg x0 (funext fun a => Fin.ext ?_)
  match a with
  | ⟨0, _⟩ => rfl
  | ⟨1, _⟩ =>
    show min (val_main_v34 (F := F) (ix5 r q kh kw ⟨0, by omega⟩)).toInt.toNat (64 - 1) = r.val + kh.val
    rw [StartWords.row_word, clamp_word _ (by omega)]
  | ⟨2, _⟩ =>
    show min (val_main_v34 (F := F) (ix5 r q kh kw ⟨1, by omega⟩)).toInt.toNat (64 - 1) = q.val + kw.val
    rw [StartWords.col_word, clamp_word _ (by omega)]
  | ⟨3, _⟩ => rfl

/-- THE REFERENCE'S RESULT is the window function of its argument. -/
theorem ref_patches (x0 : (⟨S32x64x64x64, .f32⟩ : BufTy).Contents (Elt F)) :
    val_main_v37 (F := F) x0 = Cert.Patches.patches x0 := by
  funext j
  have h0 : (j 0).val < 123008 := (j 0).isLt
  have h1 : (j 1).val < 3 := (j 1).isLt
  have h2 : (j 2).val < 3 := (j 2).isLt
  have h3 : (j 3).val < 64 := (j 3).isLt
  unfold val_main_v37
  rw [shapeCast_apply _ _ j (ix6 (⟨(j 0).val / 1984, by omega⟩ : Fin 62) (⟨(j 0).val / 32 % 62, by omega⟩ : Fin 62)
      (⟨(j 0).val % 32, by omega⟩ : Fin 32) (⟨(j 1).val, h1⟩ : Fin 3) (⟨(j 2).val, h2⟩ : Fin 3) (⟨(j 3).val, h3⟩ : Fin 64))
    (by
      rw [Shape.rowMajor_val_six, Shape.rowMajor_val_four]
      show ((((((j 0).val / 1984) * 62 + (j 0).val / 32 % 62) * 32 + (j 0).val % 32) * 3 + (j 1).val) * 3 + (j 2).val) * 64 + (j 3).val
        = (((j 0).val * 3 + (j 1).val) * 3 + (j 2).val) * 64 + (j 3).val
      omega)]
  rw [val_main_v36_apply]
  have hperm : idx_main_v36 (ix6 (⟨(j 0).val / 1984, by omega⟩ : Fin 62) (⟨(j 0).val / 32 % 62, by omega⟩ : Fin 62)
      (⟨(j 0).val % 32, by omega⟩ : Fin 32) (⟨(j 1).val, h1⟩ : Fin 3) (⟨(j 2).val, h2⟩ : Fin 3) (⟨(j 3).val, h3⟩ : Fin 64))
      = ix6 (⟨(j 0).val % 32, by omega⟩ : Fin 32) (⟨(j 0).val / 1984, by omega⟩ : Fin 62) (⟨(j 0).val / 32 % 62, by omega⟩ : Fin 62)
        (⟨(j 1).val, h1⟩ : Fin 3) (⟨(j 2).val, h2⟩ : Fin 3) (⟨(j 3).val, h3⟩ : Fin 64) := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hperm, gather_entry]
  rfl

end Cert.ReferenceIdeal.RefValue

end
-- ==== Proof.lean ====
/-
  The sliding-window extraction against its gather reference.

  Both programs return, for an image batch `x : [32, 64, 64, 64]`, the array `[123008, 3, 3, 64]` of all 3×3 windows of every
  image, window position outermost and batch inside it (Patches: `patches x (n, kh, kw, c) = x (b, r + kh, q + kw, c)` with
  n = (r·62 + q)·32 + b). Nothing is computed: every result entry is a copy of one argument entry, so the two results are equal
  on the extended reals whatever the argument holds, and the precondition is never opened.

  The kernel runs one grid point per window row r: it loads input rows r, r+1, r+2 and stores 62 column slices into its
  output block (KernelBlock: the block is `rowPatches` of the three rows); the 62 blocks tile the output, which therefore
  ends as `patches x` (KernelValue). The reference gathers whole (batch, channel) slabs at the index pairs (r + kh, q + kw),
  computed in 32-bit words that stay far below the wrap and the clamp (StartWords), then transposes and reshapes
  (RefValue: the result is `patches x`). The idealization rewrote nothing, so `preserves` is `True`; the frames are the
  generated ones, the reference's its generated run with the result dropped.
-/
import proofs.«119941_j27934467293596_1_alg».proof.Defs
import proofs.«119941_j27934467293596_1_alg».proof.Proof.Gen.Kernel
import proofs.«119941_j27934467293596_1_alg».proof.Proof.Gen.Kernel.Skeleton
import proofs.«119941_j27934467293596_1_alg».proof.Proof.Gen.Kernel.Launch
import proofs.«119941_j27934467293596_1_alg».proof.Proof.Gen.Kernel.Points
import proofs.«119941_j27934467293596_1_alg».proof.Proof.Gen.Kernel.Frame
import proofs.«119941_j27934467293596_1_alg».proof.Proof.Gen.KernelIdeal
import proofs.«119941_j27934467293596_1_alg».proof.Proof.Gen.KernelIdeal.Skeleton
import proofs.«119941_j27934467293596_1_alg».proof.Proof.Gen.KernelIdeal.Launch
import proofs.«119941_j27934467293596_1_alg».proof.Proof.Gen.KernelIdeal.Points
import proofs.«119941_j27934467293596_1_alg».proof.Proof.Gen.KernelIdeal.Frame
import proofs.«119941_j27934467293596_1_alg».proof.Proof.Gen.ReferenceIdeal
import proofs.«119941_j27934467293596_1_alg».proof.Proof.Gen.Pre_finite_inputs
import proofs.«119941_j27934467293596_1_alg».proof.Proof.Gen.KernelIdeal.Value
import proofs.«119941_j27934467293596_1_alg».proof.Proof.Gen.ReferenceIdeal.Run
import proofs.«119941_j27934467293596_1_alg».proof.Proof.Gen.ReferenceIdeal.Read
import proofs.«119941_j27934467293596_1_alg».proof.Proof.KernelValue
import proofs.«119941_j27934467293596_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both runs end with the result array at the window function of the argument: the kernel's block by block, the
    reference's entry by entry through its gather; the arguments agree, so the results are equal. -/
theorem algebraic : Cert.algebraic_KernelIdeal_ReferenceIdeal := by
  intro m ρ m' ρ' _ hagree
  refine ⟨fun c => Cert.Patches.patches (m ((c : Thread Cert.KernelIdeal.nD Cert.KernelIdeal.τ).loc Cert.KernelIdeal.main_arg0)),
    Cert.KernelIdeal.Windows.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.ReferenceIdeal.RefValue.ref_patches, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
